-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x64 .f32) (main_arg9 : FVec F S64x64 .f32) (main_arg10 : FVec F S64 .f32) (main_arg11 : FVec F S64x1 .f32) (main_arg12 : FVec F S64x1 .f32) (main_arg13 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_arg13 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x1 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x1 .f32) (main_arg12 : FVec F S64x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S1x1 : Shape := ⟨2, ![1, 1]⟩
abbrev S10000x1 : Shape := ⟨2, ![10000, 1]⟩

abbrev nBuf : Space → Nat
  | .hbm => 99
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S64x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S1x1, .f32⟩
  | .hbm, ⟨98, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x1, .f32⟩
  | .local _ .vmem, ⟨32, _⟩ => ⟨S64x1, .f32⟩
  | .local _ .vmem, ⟨33, _⟩ => ⟨S1x1, .f32⟩
  | .local _ .vmem, ⟨34, _⟩ => ⟨S10000x1, .f32⟩
  | .local _ .vmem, ⟨35, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x1.size a ≤ S100000x1.size a
  hwx3_5 : ∀ i : grid3.Coords, EltTy.bits .f32 = 32 ∨ (Rect.block (s := S100000x1) S10000x1.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S10000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x1, .f32⟩
  | 12 => ⟨S64x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000x64, .f32⟩
  | 117 => ⟨S100000x64, .f32⟩
  | 118 => ⟨S100000x1, .f32⟩
  | 119 => ⟨S100000x1, .f32⟩
  | 120 => ⟨S100000x1, .f32⟩
  | 121 => ⟨S1x1, .f32⟩
  | 122 => ⟨S100000x1, .f32⟩
  | 123 => ⟨S100000x1, .f32⟩
  | 124 => ⟨S100000x1, .f32⟩
  | 125 => ⟨S100000x1, .f32⟩
  | 126 => ⟨S_, .f32⟩
  | 127 => ⟨S100000x1, .f32⟩
  | _ => ⟨S100000x64, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_c_11 : Ref sig .tc := ⟨.hbm, 103, rfl⟩
abbrev main_v70 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_14 : Ref sig .tc := ⟨.hbm, 126, rfl⟩
abbrev main_v90 : Ref sig .tc := ⟨.hbm, 127, rfl⟩
abbrev main_v91 : Ref sig .tc := ⟨.hbm, 128, rfl⟩
abbrev main_cst_15 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its buffers named: every weakly fair execution of the whole program — four host
  stretches, each followed by one region of ten grid points — terminates without a fault, and at the end every
  buffer that is not scoped to a region holds the contents of the last boundary of the fold through the program:
  the launch memory, through each host stretch's operations, each region's arrays at what its ten write-backs leave.
  In particular the result buffer holds the last region's output array, and every argument its launch contents.
-/
import proofs.«159402_j71751723647616_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every unscoped buffer read at the last boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run, with the result buffer at the last region's output array and the arguments as launched. -/
theorem run_result : θ_run defs (onTc (τ := τ) (main (F := F))) ⟨m, fun _ => 0, ρ⟩ (fun r => ∀ c : Dev nD,
      r.2.mem ((c.tc : Thread nD τ).loc main_v68) = (dat3 (V7 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c _ (mem_uc main_v68 (by decide))).trans (W8_arr m ρ c 5),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)
    (run_held m ρ)

end Cert.KernelIdeal.Named

end
-- ==== Proof.Payload.lean ====
/-
  The kernel body's arithmetic at one entry of a block. Each grid point holds a block of 10000 rows of the node
  features `x0` and of the aggregated neighbour features `x1`, the whole weight matrices `x2`, `x3` and the bias row
  `x4`. At the exact extended reals the narrowing of the factors to 16 bits is the identity and a block product into a
  zero accumulator is the plain sum over the contracted index, so the stored value at entry (p, q) of the block is

      hidden layers :  max (Σ_k x0(p,k)·x2(k,q) + Σ_k x1(p,k)·x3(k,q) + x4(0,q), 0)
      last layer    :  logistic (Σ_k x0(p,k)·x2(k,0) + Σ_k x1(p,k)·x3(k,0) + x4(0,0))
-/
import proofs.«159402_j71751723647616_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe

/-! ## Indices: the row of a block entry against a contracted index, the column, the bias column -/

/-- (p, k): row p of entry j = (p, q), column k. -/
abbrev rowAt (j : S10000x64.Idx) (k : Fin 64) : S10000x64.Idx := fun a => match a with
  | ⟨0, _⟩ => ⟨(j 0).val, (j 0).isLt⟩
  | ⟨1, _⟩ => ⟨k.val, k.isLt⟩
/-- (k, q): row k of a 64 × 64 weight matrix, the column q of entry j = (p, q). -/
abbrev colAt (j : S10000x64.Idx) (k : Fin 64) : S64x64.Idx := fun a => match a with
  | ⟨0, _⟩ => ⟨k.val, k.isLt⟩
  | ⟨1, _⟩ => ⟨(j 1).val, (j 1).isLt⟩
/-- (0, q): the bias row at the column of entry j = (p, q). -/
abbrev biasAt (j : S10000x64.Idx) : S1x64.Idx := fun a => match a with
  | ⟨0, _⟩ => ⟨0, Nat.one_pos⟩
  | ⟨1, _⟩ => ⟨(j 1).val, (j 1).isLt⟩
/-- (p, k) for an entry j = (p, 0) of a one-column block. -/
abbrev rowAt1 (j : S10000x1.Idx) (k : Fin 64) : S10000x64.Idx := fun a => match a with
  | ⟨0, _⟩ => ⟨(j 0).val, (j 0).isLt⟩
  | ⟨1, _⟩ => ⟨k.val, k.isLt⟩
/-- (k, 0): row k of a 64 × 1 weight column. -/
abbrev colAt1 (j : S10000x1.Idx) (k : Fin 64) : S64x1.Idx := fun a => match a with
  | ⟨0, _⟩ => ⟨k.val, k.isLt⟩
  | ⟨1, _⟩ => ⟨(j 1).val, (j 1).isLt⟩
/-- (0, 0): the one bias cell. -/
abbrev biasAt1 (j : S10000x1.Idx) : S1x1.Idx := fun a => match a with
  | ⟨0, _⟩ => ⟨0, Nat.one_pos⟩
  | ⟨1, _⟩ => ⟨0, Nat.one_pos⟩

/-! ## A block product into a zero accumulator is the sum over the contracted index -/

theorem lhs64_0 (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (j : S10000x64.Idx) (q : dot_S10000x64_S64x64_S10000x64_1_0_0_1_n_n.contr.Idx) : (dot_S10000x64_S64x64_S10000x64_1_0_0_1_n_n.lhsIdx j q 1).val = (q ⟨0, by decide⟩).val :=
  dot_S10000x64_S64x64_S10000x64_1_0_0_1_n_n.lhsIdx_val_of_single rfl j q
theorem rhs64_0 (j : S10000x64.Idx) (q : dot_S10000x64_S64x64_S10000x64_1_0_0_1_n_n.contr.Idx) : (dot_S10000x64_S64x64_S10000x64_1_0_0_1_n_n.rhsIdx j q 0).val = (q ⟨0, by decide⟩).val :=
  dot_S10000x64_S64x64_S10000x64_1_0_0_1_n_n.rhsIdx_val_of_single rfl j q
theorem rhs64_1 (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- (10000 × 64) · (64 × 64) into zero, at (p, q): Σ_k a(p,k) · b(k,q). -/
theorem blockDot64_apply {φ₁ φ₂ : FTy} (a : FVec Ideal S10000x64 φ₁) (b : FVec Ideal S64x64 φ₂) (j : S10000x64.Idx) :
    FloatOps.matmul dot_S10000x64_S64x64_S10000x64_1_0_0_1_n_n none a b (constant (F := Ideal) S10000x64 .f32 0x00000000#32) j
      = ∑ k : Fin 64, a (rowAt j k) * b (colAt j k) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = rowAt j k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx j ((ValueIdx.contrEquiv1 dot_S10000x64_S64x64_S10000x64_1_0_0_1_n_n 64 rfl rfl).symm k) = colAt j k := funext fun a => Fin.ext (by
    match a with
    | ⟨0, _⟩ => exact (rhs64_0 _ _).trans hk
    | ⟨1, _⟩ => exact rhs64_1 _ _)
  rw [el, er]

theorem lhs1_0 (j : S10000x1.Idx) (q : dot_S10000x64_S64x1_S10000x1_1_0_0_1_n_n.contr.Idx) : (dot_S10000x64_S64x1_S10000x1_1_0_0_1_n_n.lhsIdx j q 0).val = (j 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs1_1 (j : S10000x1.Idx) (q : dot_S10000x64_S64x1_S10000x1_1_0_0_1_n_n.contr.Idx) : (dot_S10000x64_S64x1_S10000x1_1_0_0_1_n_n.lhsIdx j q 1).val = (q ⟨0, by decide⟩).val :=
  dot_S10000x64_S64x1_S10000x1_1_0_0_1_n_n.lhsIdx_val_of_single rfl j q
theorem rhs1_0 (j : S10000x1.Idx) (q : dot_S10000x64_S64x1_S10000x1_1_0_0_1_n_n.contr.Idx) : (dot_S10000x64_S64x1_S10000x1_1_0_0_1_n_n.rhsIdx j q 0).val = (q ⟨0, by decide⟩).val :=
  dot_S10000x64_S64x1_S10000x1_1_0_0_1_n_n.rhsIdx_val_of_single rfl j q
theorem rhs1_1 (j : S10000x1.Idx) (q : dot_S10000x64_S64x1_S10000x1_1_0_0_1_n_n.contr.Idx) : (dot_S10000x64_S64x1_S10000x1_1_0_0_1_n_n.rhsIdx j q 1).val = (j 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- (10000 × 64) · (64 × 1) into zero, at (p, 0): Σ_k a(p,k) · b(k,0). -/
theorem blockDot1_apply {φ₁ φ₂ : FTy} (a : FVec Ideal S10000x64 φ₁) (b : FVec Ideal S64x1 φ₂) (j : S10000x1.Idx) :
    FloatOps.matmul dot_S10000x64_S64x1_S10000x1_1_0_0_1_n_n none a b (constant (F := Ideal) S10000x1 .f32 0x00000000#32) j
      = ∑ k : Fin 64, a (rowAt1 j k) * b (colAt1 j k) := by
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx j ((ValueIdx.contrEquiv1 dot_S10000x64_S64x1_S10000x1_1_0_0_1_n_n 64 rfl rfl).symm k) = rowAt1 j k := funext fun a => Fin.ext (by
    match a with
    | ⟨0, _⟩ => exact lhs1_0 _ _
    | ⟨1, _⟩ => exact (lhs1_1 _ _).trans hk)
  have er : dot_S10000x64_S64x1_S10000x1_1_0_0_1_n_n.rhsIdx j ((ValueIdx.contrEquiv1 dot_S10000x64_S64x1_S10000x1_1_0_0_1_n_n 64 rfl rfl).symm k) = colAt1 j k := funext fun a => Fin.ext (by
    match a with
    | ⟨0, _⟩ => exact (rhs1_0 _ _).trans hk
    | ⟨1, _⟩ => exact rhs1_1 _ _)
  rw [el, er]

/-! ## The bias row spread over the block's rows -/

/-- The 1 × 64 bias row spread over 10000 rows, at (p, q), is the row at (0, q). -/
theorem biasRow_apply (y : FVec Ideal S1x64 .f32) (j : S10000x64.Idx) :
    broadcastTo S10000x64 y broadcasts_S1x64_S10000x64 j = y (biasAt j) :=
  broadcastTo_apply y broadcasts_S1x64_S10000x64 j (biasAt j) (fun a => match a with
    | ⟨0, _⟩ => by show 0 = if (1 : Nat) = 1 then 0 else _; rw [if_pos rfl]
    | ⟨1, _⟩ => by show (j 1).val = if (64 : Nat) = 1 then 0 else _; rw [if_neg (by decide)]; rfl)

/-- The 1 × 1 bias cell spread over 10000 rows, at (p, 0), is the cell. -/
theorem biasCell_apply (y : FVec Ideal S1x1 .f32) (j : S10000x1.Idx) :
    broadcastTo S10000x1 y broadcasts_S1x1_S10000x1 j = y (biasAt1 j) :=
  broadcastTo_apply y broadcasts_S1x1_S10000x1 j (biasAt1 j) (fun a => match a with
    | ⟨0, _⟩ => by show 0 = if (1 : Nat) = 1 then 0 else _; rw [if_pos rfl]
    | ⟨1, _⟩ => by show 0 = if (1 : Nat) = 1 then 0 else _; rw [if_pos rfl])

/-! ## The four bodies at an entry -/

variable (x0 x1 : Vec Ideal S10000x64 .f32)

/-- Region 0's stored value at entry (p, q). -/
theorem pay0_apply (x2 x3 : Vec Ideal S64x64 .f32) (x4 : Vec Ideal S1x64 .f32) (j : S10000x64.Idx) :
    k0_pay1 (F := Ideal) x0 x1 x2 x3 x4 j
      = max ((∑ k : Fin 64, x0 (rowAt j k) * x2 (colAt j k)) + (∑ k : Fin 64, x1 (rowAt j k) * x3 (colAt j k)) + x4 (biasAt j)) 0 := by
  unfold k0_pay1
  simp only [shapeCast_self]
  show max ((FloatOps.matmul dot_S10000x64_S64x64_S10000x64_1_0_0_1_n_n none (truncf .bf16 x0 bitsLt_bf16_f32) (truncf .bf16 x2 bitsLt_bf16_f32) (constant (F := Ideal) S10000x64 .f32 0x00000000#32) j
      + FloatOps.matmul dot_S10000x64_S64x64_S10000x64_1_0_0_1_n_n none (truncf .bf16 x1 bitsLt_bf16_f32) (truncf .bf16 x3 bitsLt_bf16_f32) (constant (F := Ideal) S10000x64 .f32 0x00000000#32) j)
      + broadcastTo S10000x64 x4 broadcasts_S1x64_S10000x64 j) (Ideal.ofBits .f32 0x00000000#32) = _
  rw [blockDot64_apply, blockDot64_apply, biasRow_apply, Ideal.ofBits_zero_f32]
  rfl

/-- Region 1's stored value at entry (p, q). -/
theorem pay1_apply (x2 x3 : Vec Ideal S64x64 .f32) (x4 : Vec Ideal S1x64 .f32) (j : S10000x64.Idx) :
    k1_pay1 (F := Ideal) x0 x1 x2 x3 x4 j
      = max ((∑ k : Fin 64, x0 (rowAt j k) * x2 (colAt j k)) + (∑ k : Fin 64, x1 (rowAt j k) * x3 (colAt j k)) + x4 (biasAt j)) 0 := by
  unfold k1_pay1
  simp only [shapeCast_self]
  show max ((FloatOps.matmul dot_S10000x64_S64x64_S10000x64_1_0_0_1_n_n none (truncf .bf16 x0 bitsLt_bf16_f32) (truncf .bf16 x2 bitsLt_bf16_f32) (constant (F := Ideal) S10000x64 .f32 0x00000000#32) j
      + FloatOps.matmul dot_S10000x64_S64x64_S10000x64_1_0_0_1_n_n none (truncf .bf16 x1 bitsLt_bf16_f32) (truncf .bf16 x3 bitsLt_bf16_f32) (constant (F := Ideal) S10000x64 .f32 0x00000000#32) j)
      + broadcastTo S10000x64 x4 broadcasts_S1x64_S10000x64 j) (Ideal.ofBits .f32 0x00000000#32) = _
  rw [blockDot64_apply, blockDot64_apply, biasRow_apply, Ideal.ofBits_zero_f32]
  rfl

/-- Region 2's stored value at entry (p, q). -/
theorem pay2_apply (x2 x3 : Vec Ideal S64x64 .f32) (x4 : Vec Ideal S1x64 .f32) (j : S10000x64.Idx) :
    k2_pay1 (F := Ideal) x0 x1 x2 x3 x4 j
      = max ((∑ k : Fin 64, x0 (rowAt j k) * x2 (colAt j k)) + (∑ k : Fin 64, x1 (rowAt j k) * x3 (colAt j k)) + x4 (biasAt j)) 0 := by
  unfold k2_pay1
  simp only [shapeCast_self]
  show max ((FloatOps.matmul dot_S10000x64_S64x64_S10000x64_1_0_0_1_n_n none (truncf .bf16 x0 bitsLt_bf16_f32) (truncf .bf16 x2 bitsLt_bf16_f32) (constant (F := Ideal) S10000x64 .f32 0x00000000#32) j
      + FloatOps.matmul dot_S10000x64_S64x64_S10000x64_1_0_0_1_n_n none (truncf .bf16 x1 bitsLt_bf16_f32) (truncf .bf16 x3 bitsLt_bf16_f32) (constant (F := Ideal) S10000x64 .f32 0x00000000#32) j)
      + broadcastTo S10000x64 x4 broadcasts_S1x64_S10000x64 j) (Ideal.ofBits .f32 0x00000000#32) = _
  rw [blockDot64_apply, blockDot64_apply, biasRow_apply, Ideal.ofBits_zero_f32]
  rfl

/-- Region 3's stored value at entry (p, 0): the logistic function of the two products' sum plus the bias cell. -/
theorem pay3_apply (x2 x3 : Vec Ideal S64x1 .f32) (x4 : Vec Ideal S1x1 .f32) (j : S10000x1.Idx) :
    k3_pay1 (F := Ideal) x0 x1 x2 x3 x4 j
      = Ideal.logistic ((∑ k : Fin 64, x0 (rowAt1 j k) * x2 (colAt1 j k)) + (∑ k : Fin 64, x1 (rowAt1 j k) * x3 (colAt1 j k)) + x4 (biasAt1 j)) := by
  unfold k3_pay1
  simp only [shapeCast_self]
  show Ideal.logistic ((FloatOps.matmul dot_S10000x64_S64x1_S10000x1_1_0_0_1_n_n none (truncf .bf16 x0 bitsLt_bf16_f32) (truncf .bf16 x2 bitsLt_bf16_f32) (constant (F := Ideal) S10000x1 .f32 0x00000000#32) j
      + FloatOps.matmul dot_S10000x64_S64x1_S10000x1_1_0_0_1_n_n none (truncf .bf16 x1 bitsLt_bf16_f32) (truncf .bf16 x3 bitsLt_bf16_f32) (constant (F := Ideal) S10000x1 .f32 0x00000000#32) j)
      + broadcastTo S10000x1 x4 broadcasts_S1x1_S10000x1 j) = _
  rw [blockDot1_apply, blockDot1_apply, biasCell_apply]
  rfl

end Cert.KernelIdeal.Block

end
-- ==== Proof.Combine.lean ====
/-
  One message-passing layer's dense step on whole arrays, in the host's operations. For node features `h`
  (100000 × 64), aggregated neighbour features `agg` (100000 × 64), weights `ws`, `wn` and a bias row `b2`:

      relu64 h agg ws wn b2 = max (h · ws + agg · wn + b2, 0)                   (100000 × 64; weights 64 × 64, bias 1 × 64)
      sigm1  h agg ws wn b2 = 1 / (1 + exp (−(h · ws + agg · wn + b2)))         (100000 × 1;  weights 64 × 1,  bias 1 × 1)

  Read at an entry (r, q): a matrix product is the sum over k of the left factor at (r, k) times the right factor at
  (k, q), the bias row is read at column q, and at the exact extended reals 1 / (1 + exp (−z)) is the logistic
  function of z. The reference computes its four layers as these functions of the previous layer's output, of the mean
  of that output over each node's incoming edges, and of the layer's weights and bias.
-/
import proofs.«159402_j71751723647616_1_alg».proof.Proof.Gen.ReferenceIdeal.Read
import Idealize.ShloMosaic.Lib.IdealHost

noncomputable section

namespace Cert.Combine

open Cert.ReferenceIdeal Cert.ReferenceIdeal.Gen Cert.ReferenceIdeal.Read Idealize.ShloMosaic Idealize.ShloMosaic.TcCoe

/-- The hidden layers' dense step: two products, the bias row added to every row, the negative part cut off. -/
def relu64 (h agg : FVec Ideal S100000x64 .f32) (ws wn : FVec Ideal S64x64 .f32) (b2 : FVec Ideal S1x64 .f32) :
    FVec Ideal S100000x64 .f32 :=
  maximumf
    (addf (addf (Host.dotGeneral (F := Ideal) dot_S100000x64_S64x64_S100000x64_1_0_0_1_n_n none h ws)
        (Host.dotGeneral (F := Ideal) dot_S100000x64_S64x64_S100000x64_1_0_0_1_n_n none agg wn))
      (broadcastInDim S100000x64 ![0, 1] bcast_S1x64_S100000x64_0_1 b2))
    (broadcastInDim S100000x64 ![] bcast_S_S100000x64 (constant (F := Ideal) S_ .f32 0x00000000#32))

/-- The last layer's dense step: two products into one column, the bias added, then 1 / (1 + exp (−z)). -/
def sigm1 (h agg : FVec Ideal S100000x64 .f32) (ws wn : FVec Ideal S64x1 .f32) (b2 : FVec Ideal S1x1 .f32) :
    FVec Ideal S100000x1 .f32 :=
  Host.divf (F := Ideal) (broadcastInDim S100000x1 ![] bcast_S_S100000x1 (constant (F := Ideal) S_ .f32 0x3F800000#32))
    (addf (broadcastInDim S100000x1 ![] bcast_S_S100000x1 (constant (F := Ideal) S_ .f32 0x3F800000#32))
      (Host.exp (F := Ideal) (Host.negf (F := Ideal)
        (addf (addf (Host.dotGeneral (F := Ideal) dot_S100000x64_S64x1_S100000x1_1_0_0_1_n_n none h ws)
            (Host.dotGeneral (F := Ideal) dot_S100000x64_S64x1_S100000x1_1_0_0_1_n_n none agg wn))
          (broadcastInDim S100000x1 ![0, 1] bcast_S1x1_S100000x1_0_1 b2)))))

/-- A 1 × 64 row spread over 100000 rows, at (r, q), is the row at (0, q). -/
theorem row64_apply (y : FVec Ideal S1x64 .f32) (i : S100000x64.Idx) :
    broadcastInDim S100000x64 ![0, 1] bcast_S1x64_S100000x64_0_1 y i = y (idx_main_v29 i) :=
  broadcastInDim_apply _ bcast_S1x64_S100000x64_0_1 y i (idx_main_v29 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A 1 × 1 cell spread over 100000 rows, at (r, 0), is the cell. -/
theorem row1_apply (y : FVec Ideal S1x1 .f32) (i : S100000x1.Idx) :
    broadcastInDim S100000x1 ![0, 1] bcast_S1x1_S100000x1_0_1 y i = y (idx_main_v86 i) :=
  broadcastInDim_apply _ bcast_S1x1_S100000x1_0_1 y i (idx_main_v86 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-- A scalar spread over a 100000 × 64 array, at any entry, is the scalar. -/
theorem splat64_apply (y : FVec Ideal S_ .f32) (i : S100000x64.Idx) :
    broadcastInDim S100000x64 ![] bcast_S_S100000x64 y i = y (idx_main_call0_v0 i) :=
  broadcastInDim_apply _ bcast_S_S100000x64 y i (idx_main_call0_v0 i) (fun a => a.elim0)

/-- A scalar spread over a 100000 × 1 array, at any entry, is the scalar. -/
theorem splat1_apply (y : FVec Ideal S_ .f32) (i : S100000x1.Idx) :
    broadcastInDim S100000x1 ![] bcast_S_S100000x1 y i = y (idx_main_v90 i) :=
  broadcastInDim_apply _ bcast_S_S100000x1 y i (idx_main_v90 i) (fun a => a.elim0)

/-- A (100000 × 64) · (64 × 1) product on the host, at (r, 0): the sum over k of the left factor at (r, k) times the right
    factor at (k, 0). -/
theorem dot1_apply (h : FVec Ideal S100000x64 .f32) (ws : FVec Ideal S64x1 .f32) (i : S100000x1.Idx) :
    Host.dotGeneral (F := Ideal) dot_S100000x64_S64x1_S100000x1_1_0_0_1_n_n none h ws i
      = ∑ k : Fin 64, h (lidx_main_v82 i k) * ws (ridx_main_v82 i k) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = lidx_main_v82 i k := funext fun a => Fin.ext (by
    match a with
    | ⟨0, _⟩ => exact lhs_main_v82_0 _ _
    | ⟨1, _⟩ => exact (lhs_main_v82_1 _ _).trans hk)
  have er : dot_S100000x64_S64x1_S100000x1_1_0_0_1_n_n.rhsIdx i ((ValueIdx.contrEquiv1 dot_S100000x64_S64x1_S100000x1_1_0_0_1_n_n 64 rfl rfl).symm k) = ridx_main_v82 i k := funext fun a => Fin.ext (by
    match a with
    | ⟨0, _⟩ => exact (rhs_main_v82_0 _ _).trans hk
    | ⟨1, _⟩ => exact rhs_main_v82_1 _ _)
  rw [el, er]

/-- The hidden layers' dense step at an entry (r, q): max (Σ_k h(r,k)·ws(k,q) + Σ_k agg(r,k)·wn(k,q) + b2(0,q), 0). -/
theorem relu64_apply (h agg : FVec Ideal S100000x64 .f32) (ws wn : FVec Ideal S64x64 .f32) (b2 : FVec Ideal S1x64 .f32)
    (i : S100000x64.Idx) :
    relu64 h agg ws wn b2 i
      = max ((∑ k : Fin 64, h (lidx_main_v25 i k) * ws (ridx_main_v25 i k))
          + (∑ k : Fin 64, agg (lidx_main_v25 i k) * wn (ridx_main_v25 i k)) + b2 (idx_main_v29 i)) 0 := by
  show max ((val_main_v25 (F := Ideal) h ws i + val_main_v25 (F := Ideal) agg wn i)
      + broadcastInDim S100000x64 ![0, 1] bcast_S1x64_S100000x64_0_1 b2 i)
      (broadcastInDim S100000x64 ![] bcast_S_S100000x64 (constant (F := Ideal) S_ .f32 0x00000000#32) i) = _
  rw [val_main_v25_apply, val_main_v25_apply, row64_apply, splat64_apply]
  show max _ (Ideal.ofBits .f32 0x00000000#32) = _
  rw [Ideal.ofBits_zero_f32]

/-- The last layer's dense step at an entry (r, 0): the logistic function of Σ_k h(r,k)·ws(k,0) + Σ_k agg(r,k)·wn(k,0) + b2(0,0). -/
theorem sigm1_apply (h agg : FVec Ideal S100000x64 .f32) (ws wn : FVec Ideal S64x1 .f32) (b2 : FVec Ideal S1x1 .f32)
    (i : S100000x1.Idx) :
    sigm1 h agg ws wn b2 i
      = Ideal.logistic ((∑ k : Fin 64, h (lidx_main_v82 i k) * ws (ridx_main_v82 i k))
          + (∑ k : Fin 64, agg (lidx_main_v82 i k) * wn (ridx_main_v82 i k)) + b2 (idx_main_v86 i)) := by
  show Ideal.div (broadcastInDim S100000x1 ![] bcast_S_S100000x1 (constant (F := Ideal) S_ .f32 0x3F800000#32) i)
      (broadcastInDim S100000x1 ![] bcast_S_S100000x1 (constant (F := Ideal) S_ .f32 0x3F800000#32) i
        + Ideal.exp (-((Host.dotGeneral (F := Ideal) dot_S100000x64_S64x1_S100000x1_1_0_0_1_n_n none h ws i
              + Host.dotGeneral (F := Ideal) dot_S100000x64_S64x1_S100000x1_1_0_0_1_n_n none agg wn i)
            + broadcastInDim S100000x1 ![0, 1] bcast_S1x1_S100000x1_0_1 b2 i))) = _
  rw [dot1_apply, dot1_apply, row1_apply, splat1_apply]
  show Ideal.div (Ideal.ofBits .f32 0x3F800000#32) (Ideal.ofBits .f32 0x3F800000#32 + _) = _
  rw [Ideal.ofBits_one_f32]
  rfl

/-! ## The sparse step: the mean of a layer over each node's incoming edges -/

/-- For features `h`, the edges' source column `src` and destination column `dst`, and the nodes' inverse in-degrees
    `dinv`: gather the source rows of `h` (a negative source index counted from the end), add each gathered row into its
    destination's row starting from zero, and scale every row by its node's inverse in-degree. Both programs compute
    it with these very operations; nothing below looks inside it. -/
def meanAgg (h : FVec Ideal S100000x64 .f32) (src dst : IVec S1600000 32) (dinv : FVec Ideal S100000x1 .f32) :
    FVec Ideal S100000x64 .f32 :=
  mulf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x64 ![0, 1] bcast_S100000x1_S100000x64_0_1 dinv)

/-! ## The reference's layers are these functions of the previous layer -/

variable (x0 : FVec Ideal S100000x64 .f32) (x1 : IVec S2x1600000 32)
  (x2 x3 : FVec Ideal S64x64 .f32) (x4 : FVec Ideal S64 .f32) (x5 x6 : FVec Ideal S64x64 .f32) (x7 : FVec Ideal S64 .f32)
  (x8 x9 : FVec Ideal S64x64 .f32) (x10 : FVec Ideal S64 .f32) (x11 x12 : FVec Ideal S64x1 .f32) (x13 : FVec Ideal S1 .f32)

theorem agg1_eq : val_main_v24 (F := Ideal) x0 x1
    = meanAgg x0 (val_main_v1 (F := Ideal) x1) (val_main_v3 (F := Ideal) x1) (val_main_v12 (F := Ideal) x1) := rfl

theorem agg2_eq : val_main_v43 (F := Ideal) x0 x1 x2 x3 x4
    = meanAgg (val_main_v31 (F := Ideal) x0 x1 x2 x3 x4) (val_main_v1 (F := Ideal) x1) (val_main_v3 (F := Ideal) x1) (val_main_v12 (F := Ideal) x1) := rfl

theorem agg3_eq : val_main_v62 (F := Ideal) x0 x1 x2 x3 x4 x5 x6 x7
    = meanAgg (val_main_v50 (F := Ideal) x0 x1 x2 x3 x4 x5 x6 x7) (val_main_v1 (F := Ideal) x1) (val_main_v3 (F := Ideal) x1) (val_main_v12 (F := Ideal) x1) := rfl

theorem agg4_eq : val_main_v81 (F := Ideal) x0 x1 x2 x3 x4 x5 x6 x7 x8 x9 x10
    = meanAgg (val_main_v69 (F := Ideal) x0 x1 x2 x3 x4 x5 x6 x7 x8 x9 x10) (val_main_v1 (F := Ideal) x1) (val_main_v3 (F := Ideal) x1) (val_main_v12 (F := Ideal) x1) := rfl

theorem layer1_eq : val_main_v31 (F := Ideal) x0 x1 x2 x3 x4
    = relu64 x0 (val_main_v24 (F := Ideal) x0 x1) x2 x3 (val_main_v28 (F := Ideal) x4) := rfl

theorem layer2_eq : val_main_v50 (F := Ideal) x0 x1 x2 x3 x4 x5 x6 x7
    = relu64 (val_main_v31 (F := Ideal) x0 x1 x2 x3 x4) (val_main_v43 (F := Ideal) x0 x1 x2 x3 x4) x5 x6 (val_main_v47 (F := Ideal) x7) := rfl

theorem layer3_eq : val_main_v69 (F := Ideal) x0 x1 x2 x3 x4 x5 x6 x7 x8 x9 x10
    = relu64 (val_main_v50 (F := Ideal) x0 x1 x2 x3 x4 x5 x6 x7) (val_main_v62 (F := Ideal) x0 x1 x2 x3 x4 x5 x6 x7) x8 x9 (val_main_v66 (F := Ideal) x10) := rfl

theorem layer4_eq : val_main_v93 (F := Ideal) x0 x1 x2 x3 x4 x5 x6 x7 x8 x9 x10 x11 x12 x13
    = sigm1 (val_main_v69 (F := Ideal) x0 x1 x2 x3 x4 x5 x6 x7 x8 x9 x10) (val_main_v81 (F := Ideal) x0 x1 x2 x3 x4 x5 x6 x7 x8 x9 x10) x11 x12 (val_main_v85 (F := Ideal) x13) := rfl

end Cert.Combine

end
-- ==== Proof.Entry.lean ====
/-
  Where the two sides meet: one entry of a block the kernel stores against the same entry of the whole-array dense
  step. If the block's rows are rows of `h` and `agg` (row p of the block is row r of the arrays), the weights and the
  bias row are the arrays' own, and the block entry (p, q) sits at (r, q), then both are
  max (Σ_k h(r,k)·ws(k,q) + Σ_k agg(r,k)·wn(k,q) + b2(0,q), 0) — the same sums in the same order, so no property of the
  numbers is used. Likewise for the last layer's logistic column.
-/
import proofs.«159402_j71751723647616_1_alg».proof.Proof.Payload
import proofs.«159402_j71751723647616_1_alg».proof.Proof.Combine

noncomputable section

namespace Cert.Entry

open Idealize.ShloMosaic Idealize.ShloMosaic.TcCoe
open Cert.KernelIdeal.Block Cert.Combine
open Cert.ReferenceIdeal.Read (lidx_main_v25 ridx_main_v25 idx_main_v29 lidx_main_v82 ridx_main_v82 idx_main_v86)

variable (x0 x1 : Vec Ideal Cert.KernelIdeal.S10000x64 .f32) (h agg : FVec Ideal Cert.ReferenceIdeal.S100000x64 .f32)

section Hidden
variable (x2 x3 : Vec Ideal Cert.KernelIdeal.S64x64 .f32) (x4 : Vec Ideal Cert.KernelIdeal.S1x64 .f32)
  (ws wn : FVec Ideal Cert.ReferenceIdeal.S64x64 .f32) (b2 : FVec Ideal Cert.ReferenceIdeal.S1x64 .f32)
  (j : Cert.KernelIdeal.S10000x64.Idx) (i : Cert.ReferenceIdeal.S100000x64.Idx)
  (h0 : ∀ k, x0 (rowAt j k) = h (lidx_main_v25 i k)) (h1 : ∀ k, x1 (rowAt j k) = agg (lidx_main_v25 i k))
  (h2 : ∀ k, x2 (colAt j k) = ws (ridx_main_v25 i k)) (h3 : ∀ k, x3 (colAt j k) = wn (ridx_main_v25 i k))
  (h4 : x4 (biasAt j) = b2 (idx_main_v29 i))

include h0 h1 h2 h3 h4

theorem hidden0 : Cert.KernelIdeal.Gen.k0_pay1 (F := Ideal) x0 x1 x2 x3 x4 j = relu64 h agg ws wn b2 i := by
  rw [pay0_apply, relu64_apply]; simp only [h0, h1, h2, h3, h4]

theorem hidden1 : Cert.KernelIdeal.Gen.k1_pay1 (F := Ideal) x0 x1 x2 x3 x4 j = relu64 h agg ws wn b2 i := by
  rw [pay1_apply, relu64_apply]; simp only [h0, h1, h2, h3, h4]

theorem hidden2 : Cert.KernelIdeal.Gen.k2_pay1 (F := Ideal) x0 x1 x2 x3 x4 j = relu64 h agg ws wn b2 i := by
  rw [pay2_apply, relu64_apply]; simp only [h0, h1, h2, h3, h4]

end Hidden

section Last
variable (x2 x3 : Vec Ideal Cert.KernelIdeal.S64x1 .f32) (x4 : Vec Ideal Cert.KernelIdeal.S1x1 .f32)
  (ws wn : FVec Ideal Cert.ReferenceIdeal.S64x1 .f32) (b2 : FVec Ideal Cert.ReferenceIdeal.S1x1 .f32)
  (j : Cert.KernelIdeal.S10000x1.Idx) (i : Cert.ReferenceIdeal.S100000x1.Idx)
  (h0 : ∀ k, x0 (rowAt1 j k) = h (lidx_main_v82 i k)) (h1 : ∀ k, x1 (rowAt1 j k) = agg (lidx_main_v82 i k))
  (h2 : ∀ k, x2 (colAt1 j k) = ws (ridx_main_v82 i k)) (h3 : ∀ k, x3 (colAt1 j k) = wn (ridx_main_v82 i k))
  (h4 : x4 (biasAt1 j) = b2 (idx_main_v86 i))

include h0 h1 h2 h3 h4

theorem last3 : Cert.KernelIdeal.Gen.k3_pay1 (F := Ideal) x0 x1 x2 x3 x4 j = sigm1 h agg ws wn b2 i := by
  rw [pay3_apply, sigm1_apply]; simp only [h0, h1, h2, h3, h4]

end Last

end Cert.Entry

end
-- ==== Proof.Region0.lean ====
/-
  The first dense step as the kernel runs it: ten grid points, point t holding rows 10000·t … 10000·t + 9999 of the
  node features and of the aggregated neighbour features, and the whole weight matrices and bias row at every point.
  What point t writes back is rows 10000·t … of ONE whole-array function of the arrays the region finds on entry — the
  dense step of module Combine — because entry (p, q) of the block reads row 10000·t + p of both feature arrays and
  column q of the weights and bias. The ten blocks tile the 100000 rows, so the output array ends holding that function.
  Stated for any contents `V` of the buffers at the region's entry.
-/
import proofs.«159402_j71751723647616_1_alg».proof.Proof.Gen.KernelIdeal.Frame
import proofs.«159402_j71751723647616_1_alg».proof.Proof.Entry
import Idealize.ShloMosaic.Lib.Pipeline.Value

set_option maxRecDepth 16384

noncomputable section

namespace Cert.KernelIdeal.Region0

open Cert.KernelIdeal Cert.KernelIdeal.Gen Cert.KernelIdeal.Block Cert.Combine
open Idealize.ShloMosaic Idealize.ShloMosaic.TcCoe Idealize.SL.Sem
open Idealize.ShloMosaic.Pipeline (Dat Cfg Window)
open Cert.ReferenceIdeal.Read (lidx_main_v25 ridx_main_v25 idx_main_v29)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows move with the output window along the rows and every
    window sits at column block 0; the weights and the bias stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- WHAT POINT `t` WRITES BACK is block `t` of the dense step of the arrays as the region finds them. -/
theorem flushed_eq (c : Dev nD) (t : Fin cfg0.N) :
    (dat0 (F := Ideal) V c).flushed 5 t = ((cfg0.win 5).blk t).view.read (Elt Ideal)
      (relu64 (V c main_arg0) (V c main_v24) (V c main_arg2) (V c main_arg3) (V c main_v25)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9, e10, e11⟩ := idx_facts t
  funext j
  refine Cert.Entry.hidden0 (iblk0 V c 0 t) (iblk0 V c 1 t) (V c main_arg0) (V c main_v24) (iblk0 V c 2 t) (iblk0 V c 3 t) (iblk0 V c 4 t)
    (V c main_arg2) (V c main_arg3) (V c main_v25) j (((cfg0.win 5).blk t).view.emb j) ?_ ?_ ?_ ?_ ?_
  · intro k
    show V c main_arg0 (((cfg0.win 0).blk t).view.emb (rowAt j k)) = V c main_arg0 (lidx_main_v25 (((cfg0.win 5).blk t).view.emb j) k)
    refine congrArg (V c main_arg0) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  · intro k
    show V c main_v24 (((cfg0.win 1).blk t).view.emb (rowAt j k)) = V c main_v24 (lidx_main_v25 (((cfg0.win 5).blk t).view.emb j) k)
    refine congrArg (V c main_v24) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  · intro k
    show V c main_arg2 (((cfg0.win 2).blk t).view.emb (colAt j k)) = V c main_arg2 (ridx_main_v25 (((cfg0.win 5).blk t).view.emb j) k)
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  · intro k
    show V c main_arg3 (((cfg0.win 3).blk t).view.emb (colAt j k)) = V c main_arg3 (ridx_main_v25 (((cfg0.win 5).blk t).view.emb j) k)
    refine congrArg (V c main_arg3) (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  · show V c main_v25 (((cfg0.win 4).blk t).view.emb (biasAt j)) = V c main_v25 (idx_main_v29 (((cfg0.win 5).blk t).view.emb j))
    refine congrArg (V c main_v25) (funext fun a => Fin.ext ?_)
    match a with
    | ⟨0, _⟩ => show win0_4.index t (0 : Fin 2) * 1 + 1 * 0 = 0; omega
    | ⟨1, _⟩ => show win0_4.index t (1 : Fin 2) * 64 + 1 * (j 1).val = win0_5.index t (1 : Fin 2) * 64 + 1 * (j 1).val; omega

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- The ten blocks tile the array: row r lies in the block of the point whose row block is r / 10000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the region: the dense step of the arrays the region found on entry. -/
theorem final (c : Dev nD) : (dat0 (F := Ideal) V c).arrAt 5 cfg0.N
    = relu64 (V c main_arg0) (V c main_v24) (V c main_arg2) (V c main_arg3) (V c main_v25) :=
  (dat0 (F := Ideal) V c).arrAt_eq_of_cover 5 _ (fun t _ => flushed_eq V c t) cover

end Cert.KernelIdeal.Region0

end
-- ==== Proof.Region1.lean ====
/-
  The second dense step as the kernel runs it: ten grid points, point t holding rows 10000·t … 10000·t + 9999 of the
  node features and of the aggregated neighbour features, and the whole weight matrices and bias row at every point.
  What point t writes back is rows 10000·t … of ONE whole-array function of the arrays the region finds on entry — the
  dense step of module Combine — because entry (p, q) of the block reads row 10000·t + p of both feature arrays and
  column q of the weights and bias. The ten blocks tile the 100000 rows, so the output array ends holding that function.
  Stated for any contents `V` of the buffers at the region's entry.
-/
import proofs.«159402_j71751723647616_1_alg».proof.Proof.Gen.KernelIdeal.Frame
import proofs.«159402_j71751723647616_1_alg».proof.Proof.Entry
import Idealize.ShloMosaic.Lib.Pipeline.Value

set_option maxRecDepth 16384

noncomputable section

namespace Cert.KernelIdeal.Region1

open Cert.KernelIdeal Cert.KernelIdeal.Gen Cert.KernelIdeal.Block Cert.Combine
open Idealize.ShloMosaic Idealize.ShloMosaic.TcCoe Idealize.SL.Sem
open Idealize.ShloMosaic.Pipeline (Dat Cfg Window)
open Cert.ReferenceIdeal.Read (lidx_main_v25 ridx_main_v25 idx_main_v29)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows move with the output window along the rows and every
    window sits at column block 0; the weights and the bias stay at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- WHAT POINT `t` WRITES BACK is block `t` of the dense step of the arrays as the region finds them. -/
theorem flushed_eq (c : Dev nD) (t : Fin cfg1.N) :
    (dat1 (F := Ideal) V c).flushed 5 t = ((cfg1.win 5).blk t).view.read (Elt Ideal)
      (relu64 (V c main_v26) (V c main_v38) (V c main_arg5) (V c main_arg6) (V c main_v39)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9, e10, e11⟩ := idx_facts t
  funext j
  refine Cert.Entry.hidden1 (iblk1 V c 0 t) (iblk1 V c 1 t) (V c main_v26) (V c main_v38) (iblk1 V c 2 t) (iblk1 V c 3 t) (iblk1 V c 4 t)
    (V c main_arg5) (V c main_arg6) (V c main_v39) j (((cfg1.win 5).blk t).view.emb j) ?_ ?_ ?_ ?_ ?_
  · intro k
    show V c main_v26 (((cfg1.win 0).blk t).view.emb (rowAt j k)) = V c main_v26 (lidx_main_v25 (((cfg1.win 5).blk t).view.emb j) k)
    refine congrArg (V c main_v26) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · intro k
    show V c main_v38 (((cfg1.win 1).blk t).view.emb (rowAt j k)) = V c main_v38 (lidx_main_v25 (((cfg1.win 5).blk t).view.emb j) k)
    refine congrArg (V c main_v38) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · intro k
    show V c main_arg5 (((cfg1.win 2).blk t).view.emb (colAt j k)) = V c main_arg5 (ridx_main_v25 (((cfg1.win 5).blk t).view.emb j) k)
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · intro k
    show V c main_arg6 (((cfg1.win 3).blk t).view.emb (colAt j k)) = V c main_arg6 (ridx_main_v25 (((cfg1.win 5).blk t).view.emb j) k)
    refine congrArg (V c main_arg6) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  · show V c main_v39 (((cfg1.win 4).blk t).view.emb (biasAt j)) = V c main_v39 (idx_main_v29 (((cfg1.win 5).blk t).view.emb j))
    refine congrArg (V c main_v39) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- The ten blocks tile the array: row r lies in the block of the point whose row block is r / 10000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the region: the dense step of the arrays the region found on entry. -/
theorem final (c : Dev nD) : (dat1 (F := Ideal) V c).arrAt 5 cfg1.N
    = relu64 (V c main_v26) (V c main_v38) (V c main_arg5) (V c main_arg6) (V c main_v39) :=
  (dat1 (F := Ideal) V c).arrAt_eq_of_cover 5 _ (fun t _ => flushed_eq V c t) cover

end Cert.KernelIdeal.Region1

end
-- ==== Proof.Region2.lean ====
/-
  The third dense step as the kernel runs it: ten grid points, point t holding rows 10000·t … 10000·t + 9999 of the
  node features and of the aggregated neighbour features, and the whole weight matrices and bias row at every point.
  What point t writes back is rows 10000·t … of ONE whole-array function of the arrays the region finds on entry — the
  dense step of module Combine — because entry (p, q) of the block reads row 10000·t + p of both feature arrays and
  column q of the weights and bias. The ten blocks tile the 100000 rows, so the output array ends holding that function.
  Stated for any contents `V` of the buffers at the region's entry.
-/
import proofs.«159402_j71751723647616_1_alg».proof.Proof.Gen.KernelIdeal.Frame
import proofs.«159402_j71751723647616_1_alg».proof.Proof.Entry
import Idealize.ShloMosaic.Lib.Pipeline.Value

set_option maxRecDepth 16384

noncomputable section

namespace Cert.KernelIdeal.Region2

open Cert.KernelIdeal Cert.KernelIdeal.Gen Cert.KernelIdeal.Block Cert.Combine
open Idealize.ShloMosaic Idealize.ShloMosaic.TcCoe Idealize.SL.Sem
open Idealize.ShloMosaic.Pipeline (Dat Cfg Window)
open Cert.ReferenceIdeal.Read (lidx_main_v25 ridx_main_v25 idx_main_v29)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows move with the output window along the rows and every
    window sits at column block 0; the weights and the bias stay at block (0, 0). -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every one of the ten row blocks is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- WHAT POINT `t` WRITES BACK is block `t` of the dense step of the arrays as the region finds them. -/
theorem flushed_eq (c : Dev nD) (t : Fin cfg2.N) :
    (dat2 (F := Ideal) V c).flushed 5 t = ((cfg2.win 5).blk t).view.read (Elt Ideal)
      (relu64 (V c main_v40) (V c main_v52) (V c main_arg8) (V c main_arg9) (V c main_v53)) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9, e10, e11⟩ := idx_facts t
  funext j
  refine Cert.Entry.hidden2 (iblk2 V c 0 t) (iblk2 V c 1 t) (V c main_v40) (V c main_v52) (iblk2 V c 2 t) (iblk2 V c 3 t) (iblk2 V c 4 t)
    (V c main_arg8) (V c main_arg9) (V c main_v53) j (((cfg2.win 5).blk t).view.emb j) ?_ ?_ ?_ ?_ ?_
  · intro k
    show V c main_v40 (((cfg2.win 0).blk t).view.emb (rowAt j k)) = V c main_v40 (lidx_main_v25 (((cfg2.win 5).blk t).view.emb j) k)
    refine congrArg (V c main_v40) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * k.val = k.val; omega
  · intro k
    show V c main_v52 (((cfg2.win 1).blk t).view.emb (rowAt j k)) = V c main_v52 (lidx_main_v25 (((cfg2.win 5).blk t).view.emb j) k)
    refine congrArg (V c main_v52) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * k.val = k.val; omega
  · intro k
    show V c main_arg8 (((cfg2.win 2).blk t).view.emb (colAt j k)) = V c main_arg8 (ridx_main_v25 (((cfg2.win 5).blk t).view.emb j) k)
    refine congrArg (V c main_arg8) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  · intro k
    show V c main_arg9 (((cfg2.win 3).blk t).view.emb (colAt j k)) = V c main_arg9 (ridx_main_v25 (((cfg2.win 5).blk t).view.emb j) k)
    refine congrArg (V c main_arg9) (funext fun a => Fin.ext ?_)
    match a with
    | ⟨0, _⟩ => show win2_3.index t (0 : Fin 2) * 64 + 1 * k.val = k.val; omega
    | ⟨1, _⟩ => show win2_3.index t (1 : Fin 2) * 64 + 1 * (j 1).val = win2_5.index t (1 : Fin 2) * 64 + 1 * (j 1).val; omega
  · show V c main_v53 (((cfg2.win 4).blk t).view.emb (biasAt j)) = V c main_v53 (idx_main_v29 (((cfg2.win 5).blk t).view.emb j))
    refine congrArg (V c main_v53) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega

/-- An index of the output array is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v54).slice (win2_5.rect t)).set ↔ _
  rw [View.set_slice_whole, Rect.mem_set_unit]
  exact Iff.rfl

/-- The ten blocks tile the array: row r lies in the block of the point whose row block is r / 10000. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE OUTPUT ARRAY after the region: the dense step of the arrays the region found on entry. -/
theorem final (c : Dev nD) : (dat2 (F := Ideal) V c).arrAt 5 cfg2.N
    = relu64 (V c main_v40) (V c main_v52) (V c main_arg8) (V c main_arg9) (V c main_v53) :=
  (dat2 (F := Ideal) V c).arrAt_eq_of_cover 5 _ (fun t _ => flushed_eq V c t) cover

end Cert.KernelIdeal.Region2

end
-- ==== Proof.Region3.lean ====
/-
  The last dense step as the kernel runs it: ten grid points, point t holding rows 10000·t … 10000·t + 9999 of the
  node features and of the aggregated neighbour features, and the whole weight matrices and bias row at every point.
  What point t writes back is rows 10000·t … of ONE whole-array function of the arrays the region finds on entry — the
  dense step of module Combine — because entry (p, q) of the block reads row 10000·t + p of both feature arrays and
  column q of the weights and bias. The ten blocks tile the 100000 rows, so the output array ends holding that function.
  Stated for any contents `V` of the buffers at the region's entry.
-/
import proofs.«159402_j71751723647616_1_alg».proof.Proof.Gen.KernelIdeal.Frame
import proofs.«159402_j71751723647616_1_alg».proof.Proof.Entry
import Idealize.ShloMosaic.Lib.Pipeline.Value

set_option maxRecDepth 16384

noncomputable section

namespace Cert.KernelIdeal.Region3

open Cert.KernelIdeal Cert.KernelIdeal.Gen Cert.KernelIdeal.Block Cert.Combine
open Idealize.ShloMosaic Idealize.ShloMosaic.TcCoe Idealize.SL.Sem
open Idealize.ShloMosaic.Pipeline (Dat Cfg Window)
open Cert.ReferenceIdeal.Read (lidx_main_v82 ridx_main_v82 idx_main_v86)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows move with the output window along the rows and every
    window sits at column block 0; the weights and the bias stay at block (0, 0). -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every one of the ten row blocks is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-- WHAT POINT `t` WRITES BACK is block `t` of the dense step of the arrays as the region finds them. -/
theorem flushed_eq (c : Dev nD) (t : Fin cfg3.N) :
    (dat3 (F := Ideal) V c).flushed 5 t = ((cfg3.win 5).blk t).view.read (Elt Ideal)
      (sigm1 (V c main_v54) (V c main_v66) (V c main_arg11) (V c main_arg12) (V c main_v67)) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x1) hz, View.ld_unit_zero (S := S1x1) hz]
  obtain ⟨e0, e1, e2, e3, e4, e5, e6, e7, e8, e9, e10, e11⟩ := idx_facts t
  funext j
  refine Cert.Entry.last3 (iblk3 V c 0 t) (iblk3 V c 1 t) (V c main_v54) (V c main_v66) (iblk3 V c 2 t) (iblk3 V c 3 t) (iblk3 V c 4 t)
    (V c main_arg11) (V c main_arg12) (V c main_v67) j (((cfg3.win 5).blk t).view.emb j) ?_ ?_ ?_ ?_ ?_
  · intro k
    show V c main_v54 (((cfg3.win 0).blk t).view.emb (rowAt1 j k)) = V c main_v54 (lidx_main_v82 (((cfg3.win 5).blk t).view.emb j) k)
    refine congrArg (V c main_v54) (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * k.val = k.val; omega
  · intro k
    show V c main_v66 (((cfg3.win 1).blk t).view.emb (rowAt1 j k)) = V c main_v66 (lidx_main_v82 (((cfg3.win 5).blk t).view.emb j) k)
    refine congrArg (V c main_v66) (funext fun a => Fin.ext ?_)
    match a with
    | ⟨0, _⟩ => show win3_1.index t (0 : Fin 2) * 10000 + 1 * (j 0).val = win3_5.index t (0 : Fin 2) * 10000 + 1 * (j 0).val; omega
    | ⟨1, _⟩ => show win3_1.index t (1 : Fin 2) * 64 + 1 * k.val = k.val; omega
  · intro k
    show V c main_arg11 (((cfg3.win 2).blk t).view.emb (colAt1 j k)) = V c main_arg11 (ridx_main_v82 (((cfg3.win 5).blk t).view.emb j) k)
    refine congrArg (V c main_arg11) (funext fun a => Fin.ext ?_)
    match a with
    | ⟨0, _⟩ => show win3_2.index t (0 : Fin 2) * 64 + 1 * k.val = k.val; omega
    | ⟨1, _⟩ => show win3_2.index t (1 : Fin 2) * 1 + 1 * (j 1).val = win3_5.index t (1 : Fin 2) * 1 + 1 * (j 1).val; omega
  · intro k
    show V c main_arg12 (((cfg3.win 3).blk t).view.emb (colAt1 j k)) = V c main_arg12 (ridx_main_v82 (((cfg3.win 5).blk t).view.emb j) k)
    refine congrArg (V c main_arg12) (funext fun a => Fin.ext ?_)
    match a with
    | ⟨0, _⟩ => show win3_3.index t (0 : Fin 2) * 64 + 1 * k.val = k.val; omega
    | ⟨1, _⟩ => show win3_3.index t (1 : Fin 2) * 1 + 1 * (j 1).val = win3_5.index t (1 : Fin 2) * 1 + 1 * (j 1).val; omega
  · show V c main_v67 (((cfg3.win 4).blk t).view.emb (biasAt1 j)) = V c main_v67 (idx_main_v86 (((cfg3.win 5).blk t).view.emb j))
    refine congrArg (V c main_v67) (funext fun a => Fin.ext ?_)
    match a with
    | ⟨0, _⟩ => show win3_4.index t (0 : Fin 2) * 1 + 1 * 0 = 0; omega
    | ⟨1, _⟩ => show win3_4.index t (1 : Fin 2) * 1 + 1 * 0 = 0; omega

/-- An index of the output array is in point `t`'s block iff each coordinate is in the block's range on its axis. -/
theorem mem_blk (t : Fin cfg3.N) (i : S100000x1.Idx) :
    i ∈ ((cfg3.win 5).blk t).view.set ↔ ∀ a : Fin 2, win3_5.index t a * S10000x1.size a ≤ (i a).val ∧ (i a).val < win3_5.index t a * S10000x1.size a + S10000x1.size a := by
  show i ∈ ((View.whole main_v68).slice (win3_5.rect t)).set ↔ _
  rw [View.set_slice_whole, Rect.mem_set_unit]
  exact Iff.rfl

/-- The ten blocks tile the array: row r lies in the block of the point whose row block is r / 10000. -/
theorem cover (i : S100000x1.Idx) : ∃ t : Fin cfg3.N, (cfg3.win 5).flush t = true ∧ i ∈ ((cfg3.win 5).blk t).view.set := by
  have hi0 : (i 0).val < 100000 := (i 0).isLt
  have hi1 : (i 1).val < 1 := (i 1).isLt
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 1 ≤ (i 1).val ∧ (i 1).val < win3_5.index t (1 : Fin 2) * 1 + 1; omega

/-- THE OUTPUT ARRAY after the region: the dense step of the arrays the region found on entry. -/
theorem final (c : Dev nD) : (dat3 (F := Ideal) V c).arrAt 5 cfg3.N
    = sigm1 (V c main_v54) (V c main_v66) (V c main_arg11) (V c main_arg12) (V c main_v67) :=
  (dat3 (F := Ideal) V c).arrAt_eq_of_cover 5 _ (fun t _ => flushed_eq V c t) cover

end Cert.KernelIdeal.Region3

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Fold.lean ====
/-
  The fold through the idealized kernel's program, read back. At every boundary — after a host stretch, after a
  region — each buffer the next segment reads holds a named function of the launch arrays:
    · an argument holds its launch contents (no host operation and no region's output window writes one);
    · the edges' source and destination columns and the nodes' inverse in-degrees, computed once by the first host
      stretch, are carried unchanged through every later segment;
    · each host stretch's aggregate is the mean of the previous layer's output over each node's incoming edges, by the
      same gather, scatter-add and product the reference applies;
    · each bias row is the layer's bias vector laid out as one row (a reshape on this side, a broadcast on the other:
      the same entries);
    · each region's output array is the dense step of module Combine of the arrays the region finds on entry.
  Chained, the four regions' outputs are the reference's four layers as functions of the launch arrays.
-/
import proofs.«159402_j71751723647616_1_alg».proof.Proof.Gen.KernelIdeal.Frame
import proofs.«159402_j71751723647616_1_alg».proof.Proof.Region0
import proofs.«159402_j71751723647616_1_alg».proof.Proof.Region1
import proofs.«159402_j71751723647616_1_alg».proof.Proof.Region2
import proofs.«159402_j71751723647616_1_alg».proof.Proof.Region3
import proofs.«159402_j71751723647616_1_alg».proof.Proof.LibHostKeeps
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## A bias vector as one row: the reshape and the broadcast have the same entries -/

/-- 64 numbers reshaped to a 1 × 64 row are the same numbers broadcast along a new leading axis. -/
theorem bias64_eq (x : FVec Ideal S64 .f32) :
    shapeCast S1x64 x shapeCasts_S64_S1x64 = Cert.ReferenceIdeal.Read.val_main_v28 (F := Ideal) x := by
  funext i
  rw [Cert.ReferenceIdeal.Read.val_main_v28_apply]
  exact shapeCast_apply x shapeCasts_S64_S1x64 i (Cert.ReferenceIdeal.Read.idx_main_v28 i)
    (by rewrite [Shape.rowMajor_val_one, Shape.rowMajor_val_two]; have h0 : (i 0).val < 1 := (i 0).isLt; show (i 1).val = (i 0).val * 64 + (i 1).val; omega)

/-- One number reshaped to a 1 × 1 cell is the same number broadcast along a new leading axis. -/
theorem bias1_eq (x : FVec Ideal S1 .f32) :
    shapeCast S1x1 x shapeCasts_S1_S1x1 = Cert.ReferenceIdeal.Read.val_main_v85 (F := Ideal) x := by
  funext i
  rw [Cert.ReferenceIdeal.Read.val_main_v85_apply]
  exact shapeCast_apply x shapeCasts_S1_S1x1 i (Cert.ReferenceIdeal.Read.idx_main_v85 i)
    (by rewrite [Shape.rowMajor_val_one, Shape.rowMajor_val_two]; have h0 : (i 0).val < 1 := (i 0).isLt; have h1 : (i 1).val < 1 := (i 1).isLt; show (0 : Nat) = (i 0).val * 1 + (i 1).val; omega)

variable (m : (ℓ : Loc nD τ sig) → Buf (Elt Ideal) ℓ) (ρ : Dev nD → PrngReg) (c : Dev nD)

/-! ## The arguments at the boundaries where a later segment reads them -/

theorem w1_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by host_keeps hostOps0)
theorem w1_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by host_keeps hostOps0)
theorem w1_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) by host_keeps hostOps0)
theorem w1_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by host_keeps hostOps0)
theorem w2_arg5 : W2 m ρ c (Proc.devRef .tc main_arg5) = m ((c : Thread nD τ).loc main_arg5) :=
  (W2_of_ne m ρ c main_arg5 (by decide)).trans (w1_arg5 m ρ c)
theorem w3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by host_keeps hostOps1).trans (w2_arg5 m ρ c)
theorem w1_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by host_keeps hostOps0)
theorem w2_arg6 : W2 m ρ c (Proc.devRef .tc main_arg6) = m ((c : Thread nD τ).loc main_arg6) :=
  (W2_of_ne m ρ c main_arg6 (by decide)).trans (w1_arg6 m ρ c)
theorem w3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by host_keeps hostOps1).trans (w2_arg6 m ρ c)
theorem w1_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) by host_keeps hostOps0)
theorem w2_arg7 : W2 m ρ c (Proc.devRef .tc main_arg7) = m ((c : Thread nD τ).loc main_arg7) :=
  (W2_of_ne m ρ c main_arg7 (by decide)).trans (w1_arg7 m ρ c)
theorem w1_arg8 : W1 m ρ c (Proc.devRef .tc main_arg8) = m ((c : Thread nD τ).loc main_arg8) :=
  (show StableHlo.after hostOps0 (W0 m ρ c) (Proc.devRef .tc main_arg8) = W0 m ρ c (Proc.devRef .tc main_arg8) by host_keeps hostOps0)
theorem w2_arg8 : W2 m ρ c (Proc.devRef .tc main_arg8) = m ((c : Thread nD τ).loc main_arg8) :=
  (W2_of_ne m ρ c main_arg8 (by decide)).trans (w1_arg8 m ρ c)
theorem w3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) by host_keeps hostOps1).trans (w2_arg8 m ρ c)
theorem w4_arg8 : W4 m ρ c (Proc.devRef .tc main_arg8) = m ((c : Thread nD τ).loc main_arg8) :=
  (W4_of_ne m ρ c main_arg8 (by decide)).trans (w3_arg8 m ρ c)
theorem w5_arg8 : W5 m ρ c (Proc.devRef .tc main_arg8) = m ((c : Thread nD τ).loc main_arg8) :=
  (show StableHlo.after hostOps2 (W4 m ρ c) (Proc.devRef .tc main_arg8) = W4 m ρ c (Proc.devRef .tc main_arg8) by host_keeps hostOps2).trans (w4_arg8 m ρ c)
theorem w1_arg9 : W1 m ρ c (Proc.devRef .tc main_arg9) = m ((c : Thread nD τ).loc main_arg9) :=
  (show StableHlo.after hostOps0 (W0 m ρ c) (Proc.devRef .tc main_arg9) = W0 m ρ c (Proc.devRef .tc main_arg9) by host_keeps hostOps0)
theorem w2_arg9 : W2 m ρ c (Proc.devRef .tc main_arg9) = m ((c : Thread nD τ).loc main_arg9) :=
  (W2_of_ne m ρ c main_arg9 (by decide)).trans (w1_arg9 m ρ c)
theorem w3_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) by host_keeps hostOps1).trans (w2_arg9 m ρ c)
theorem w4_arg9 : W4 m ρ c (Proc.devRef .tc main_arg9) = m ((c : Thread nD τ).loc main_arg9) :=
  (W4_of_ne m ρ c main_arg9 (by decide)).trans (w3_arg9 m ρ c)
theorem w5_arg9 : W5 m ρ c (Proc.devRef .tc main_arg9) = m ((c : Thread nD τ).loc main_arg9) :=
  (show StableHlo.after hostOps2 (W4 m ρ c) (Proc.devRef .tc main_arg9) = W4 m ρ c (Proc.devRef .tc main_arg9) by host_keeps hostOps2).trans (w4_arg9 m ρ c)
theorem w1_arg10 : W1 m ρ c (Proc.devRef .tc main_arg10) = m ((c : Thread nD τ).loc main_arg10) :=
  (show StableHlo.after hostOps0 (W0 m ρ c) (Proc.devRef .tc main_arg10) = W0 m ρ c (Proc.devRef .tc main_arg10) by host_keeps hostOps0)
theorem w2_arg10 : W2 m ρ c (Proc.devRef .tc main_arg10) = m ((c : Thread nD τ).loc main_arg10) :=
  (W2_of_ne m ρ c main_arg10 (by decide)).trans (w1_arg10 m ρ c)
theorem w3_arg10 : W3 m ρ c (Proc.devRef .tc main_arg10) = m ((c : Thread nD τ).loc main_arg10) :=
  (show StableHlo.after hostOps1 (W2 m ρ c) (Proc.devRef .tc main_arg10) = W2 m ρ c (Proc.devRef .tc main_arg10) by host_keeps hostOps1).trans (w2_arg10 m ρ c)
theorem w4_arg10 : W4 m ρ c (Proc.devRef .tc main_arg10) = m ((c : Thread nD τ).loc main_arg10) :=
  (W4_of_ne m ρ c main_arg10 (by decide)).trans (w3_arg10 m ρ c)
theorem w1_arg11 : W1 m ρ c (Proc.devRef .tc main_arg11) = m ((c : Thread nD τ).loc main_arg11) :=
  (show StableHlo.after hostOps0 (W0 m ρ c) (Proc.devRef .tc main_arg11) = W0 m ρ c (Proc.devRef .tc main_arg11) by host_keeps hostOps0)
theorem w2_arg11 : W2 m ρ c (Proc.devRef .tc main_arg11) = m ((c : Thread nD τ).loc main_arg11) :=
  (W2_of_ne m ρ c main_arg11 (by decide)).trans (w1_arg11 m ρ c)
theorem w3_arg11 : W3 m ρ c (Proc.devRef .tc main_arg11) = m ((c : Thread nD τ).loc main_arg11) :=
  (show StableHlo.after hostOps1 (W2 m ρ c) (Proc.devRef .tc main_arg11) = W2 m ρ c (Proc.devRef .tc main_arg11) by host_keeps hostOps1).trans (w2_arg11 m ρ c)
theorem w4_arg11 : W4 m ρ c (Proc.devRef .tc main_arg11) = m ((c : Thread nD τ).loc main_arg11) :=
  (W4_of_ne m ρ c main_arg11 (by decide)).trans (w3_arg11 m ρ c)
theorem w5_arg11 : W5 m ρ c (Proc.devRef .tc main_arg11) = m ((c : Thread nD τ).loc main_arg11) :=
  (show StableHlo.after hostOps2 (W4 m ρ c) (Proc.devRef .tc main_arg11) = W4 m ρ c (Proc.devRef .tc main_arg11) by host_keeps hostOps2).trans (w4_arg11 m ρ c)
theorem w6_arg11 : W6 m ρ c (Proc.devRef .tc main_arg11) = m ((c : Thread nD τ).loc main_arg11) :=
  (W6_of_ne m ρ c main_arg11 (by decide)).trans (w5_arg11 m ρ c)
theorem w7_arg11 : W7 m ρ c (Proc.devRef .tc main_arg11) = m ((c : Thread nD τ).loc main_arg11) :=
  (show StableHlo.after hostOps3 (W6 m ρ c) (Proc.devRef .tc main_arg11) = W6 m ρ c (Proc.devRef .tc main_arg11) by host_keeps hostOps3).trans (w6_arg11 m ρ c)
theorem w1_arg12 : W1 m ρ c (Proc.devRef .tc main_arg12) = m ((c : Thread nD τ).loc main_arg12) :=
  (show StableHlo.after hostOps0 (W0 m ρ c) (Proc.devRef .tc main_arg12) = W0 m ρ c (Proc.devRef .tc main_arg12) by host_keeps hostOps0)
theorem w2_arg12 : W2 m ρ c (Proc.devRef .tc main_arg12) = m ((c : Thread nD τ).loc main_arg12) :=
  (W2_of_ne m ρ c main_arg12 (by decide)).trans (w1_arg12 m ρ c)
theorem w3_arg12 : W3 m ρ c (Proc.devRef .tc main_arg12) = m ((c : Thread nD τ).loc main_arg12) :=
  (show StableHlo.after hostOps1 (W2 m ρ c) (Proc.devRef .tc main_arg12) = W2 m ρ c (Proc.devRef .tc main_arg12) by host_keeps hostOps1).trans (w2_arg12 m ρ c)
theorem w4_arg12 : W4 m ρ c (Proc.devRef .tc main_arg12) = m ((c : Thread nD τ).loc main_arg12) :=
  (W4_of_ne m ρ c main_arg12 (by decide)).trans (w3_arg12 m ρ c)
theorem w5_arg12 : W5 m ρ c (Proc.devRef .tc main_arg12) = m ((c : Thread nD τ).loc main_arg12) :=
  (show StableHlo.after hostOps2 (W4 m ρ c) (Proc.devRef .tc main_arg12) = W4 m ρ c (Proc.devRef .tc main_arg12) by host_keeps hostOps2).trans (w4_arg12 m ρ c)
theorem w6_arg12 : W6 m ρ c (Proc.devRef .tc main_arg12) = m ((c : Thread nD τ).loc main_arg12) :=
  (W6_of_ne m ρ c main_arg12 (by decide)).trans (w5_arg12 m ρ c)
theorem w7_arg12 : W7 m ρ c (Proc.devRef .tc main_arg12) = m ((c : Thread nD τ).loc main_arg12) :=
  (show StableHlo.after hostOps3 (W6 m ρ c) (Proc.devRef .tc main_arg12) = W6 m ρ c (Proc.devRef .tc main_arg12) by host_keeps hostOps3).trans (w6_arg12 m ρ c)
theorem w1_arg13 : W1 m ρ c (Proc.devRef .tc main_arg13) = m ((c : Thread nD τ).loc main_arg13) :=
  (show StableHlo.after hostOps0 (W0 m ρ c) (Proc.devRef .tc main_arg13) = W0 m ρ c (Proc.devRef .tc main_arg13) by host_keeps hostOps0)
theorem w2_arg13 : W2 m ρ c (Proc.devRef .tc main_arg13) = m ((c : Thread nD τ).loc main_arg13) :=
  (W2_of_ne m ρ c main_arg13 (by decide)).trans (w1_arg13 m ρ c)
theorem w3_arg13 : W3 m ρ c (Proc.devRef .tc main_arg13) = m ((c : Thread nD τ).loc main_arg13) :=
  (show StableHlo.after hostOps1 (W2 m ρ c) (Proc.devRef .tc main_arg13) = W2 m ρ c (Proc.devRef .tc main_arg13) by host_keeps hostOps1).trans (w2_arg13 m ρ c)
theorem w4_arg13 : W4 m ρ c (Proc.devRef .tc main_arg13) = m ((c : Thread nD τ).loc main_arg13) :=
  (W4_of_ne m ρ c main_arg13 (by decide)).trans (w3_arg13 m ρ c)
theorem w5_arg13 : W5 m ρ c (Proc.devRef .tc main_arg13) = m ((c : Thread nD τ).loc main_arg13) :=
  (show StableHlo.after hostOps2 (W4 m ρ c) (Proc.devRef .tc main_arg13) = W4 m ρ c (Proc.devRef .tc main_arg13) by host_keeps hostOps2).trans (w4_arg13 m ρ c)
theorem w6_arg13 : W6 m ρ c (Proc.devRef .tc main_arg13) = m ((c : Thread nD τ).loc main_arg13) :=
  (W6_of_ne m ρ c main_arg13 (by decide)).trans (w5_arg13 m ρ c)

/-! ## The edge columns and the inverse in-degrees, carried from the first host stretch -/

theorem w1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl
theorem w2_v1 : W2 m ρ c (Proc.devRef .tc main_v1) = Cert.ReferenceIdeal.Read.val_main_v1 (F := Ideal) (m ((c : Thread nD τ).loc main_arg1)) :=
  (W2_of_ne m ρ c main_v1 (by decide)).trans (w1_v1 m ρ c)
theorem w3_v1 : W3 m ρ c (Proc.devRef .tc main_v1) = Cert.ReferenceIdeal.Read.val_main_v1 (F := Ideal) (m ((c : Thread nD τ).loc main_arg1)) :=
  (show StableHlo.after hostOps1 (W2 m ρ c) (Proc.devRef .tc main_v1) = W2 m ρ c (Proc.devRef .tc main_v1) by host_keeps hostOps1).trans (w2_v1 m ρ c)
theorem w4_v1 : W4 m ρ c (Proc.devRef .tc main_v1) = Cert.ReferenceIdeal.Read.val_main_v1 (F := Ideal) (m ((c : Thread nD τ).loc main_arg1)) :=
  (W4_of_ne m ρ c main_v1 (by decide)).trans (w3_v1 m ρ c)
theorem w5_v1 : W5 m ρ c (Proc.devRef .tc main_v1) = Cert.ReferenceIdeal.Read.val_main_v1 (F := Ideal) (m ((c : Thread nD τ).loc main_arg1)) :=
  (show StableHlo.after hostOps2 (W4 m ρ c) (Proc.devRef .tc main_v1) = W4 m ρ c (Proc.devRef .tc main_v1) by host_keeps hostOps2).trans (w4_v1 m ρ c)
theorem w6_v1 : W6 m ρ c (Proc.devRef .tc main_v1) = Cert.ReferenceIdeal.Read.val_main_v1 (F := Ideal) (m ((c : Thread nD τ).loc main_arg1)) :=
  (W6_of_ne m ρ c main_v1 (by decide)).trans (w5_v1 m ρ c)
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
theorem w2_v3 : W2 m ρ c (Proc.devRef .tc main_v3) = Cert.ReferenceIdeal.Read.val_main_v3 (F := Ideal) (m ((c : Thread nD τ).loc main_arg1)) :=
  (W2_of_ne m ρ c main_v3 (by decide)).trans (w1_v3 m ρ c)
theorem w3_v3 : W3 m ρ c (Proc.devRef .tc main_v3) = Cert.ReferenceIdeal.Read.val_main_v3 (F := Ideal) (m ((c : Thread nD τ).loc main_arg1)) :=
  (show StableHlo.after hostOps1 (W2 m ρ c) (Proc.devRef .tc main_v3) = W2 m ρ c (Proc.devRef .tc main_v3) by host_keeps hostOps1).trans (w2_v3 m ρ c)
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w5_v3 : W5 m ρ c (Proc.devRef .tc main_v3) = Cert.ReferenceIdeal.Read.val_main_v3 (F := Ideal) (m ((c : Thread nD τ).loc main_arg1)) :=
  (show StableHlo.after hostOps2 (W4 m ρ c) (Proc.devRef .tc main_v3) = W4 m ρ c (Proc.devRef .tc main_v3) by host_keeps hostOps2).trans (w4_v3 m ρ c)
theorem w6_v3 : W6 m ρ c (Proc.devRef .tc main_v3) = Cert.ReferenceIdeal.Read.val_main_v3 (F := Ideal) (m ((c : Thread nD τ).loc main_arg1)) :=
  (W6_of_ne m ρ c main_v3 (by decide)).trans (w5_v3 m ρ c)
theorem w1_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  after_results_simp <;> rfl
theorem w2_v12 : W2 m ρ c (Proc.devRef .tc main_v12) = Cert.ReferenceIdeal.Read.val_main_v12 (F := Ideal) (m ((c : Thread nD τ).loc main_arg1)) :=
  (W2_of_ne m ρ c main_v12 (by decide)).trans (w1_v12 m ρ c)
theorem w3_v12 : W3 m ρ c (Proc.devRef .tc main_v12) = Cert.ReferenceIdeal.Read.val_main_v12 (F := Ideal) (m ((c : Thread nD τ).loc main_arg1)) :=
  (show StableHlo.after hostOps1 (W2 m ρ c) (Proc.devRef .tc main_v12) = W2 m ρ c (Proc.devRef .tc main_v12) by host_keeps hostOps1).trans (w2_v12 m ρ c)
theorem w4_v12 : W4 m ρ c (Proc.devRef .tc main_v12) = Cert.ReferenceIdeal.Read.val_main_v12 (F := Ideal) (m ((c : Thread nD τ).loc main_arg1)) :=
  (W4_of_ne m ρ c main_v12 (by decide)).trans (w3_v12 m ρ c)
theorem w5_v12 : W5 m ρ c (Proc.devRef .tc main_v12) = Cert.ReferenceIdeal.Read.val_main_v12 (F := Ideal) (m ((c : Thread nD τ).loc main_arg1)) :=
  (show StableHlo.after hostOps2 (W4 m ρ c) (Proc.devRef .tc main_v12) = W4 m ρ c (Proc.devRef .tc main_v12) by host_keeps hostOps2).trans (w4_v12 m ρ c)
theorem w6_v12 : W6 m ρ c (Proc.devRef .tc main_v12) = Cert.ReferenceIdeal.Read.val_main_v12 (F := Ideal) (m ((c : Thread nD τ).loc main_arg1)) :=
  (W6_of_ne m ρ c main_v12 (by decide)).trans (w5_v12 m ρ c)

/-! ## Layer 1 -/

/-- The first host stretch's aggregate: the mean of the input features over each node's incoming edges. -/
theorem w1_agg : W1 m ρ c (Proc.devRef .tc main_v24) = Cert.ReferenceIdeal.Read.val_main_v24 (F := Ideal) (m ((c : Thread nD τ).loc main_arg0)) (m ((c : Thread nD τ).loc main_arg1)) := by
  show StableHlo.after hostOps0 (W0 m ρ c) (Proc.devRef .tc main_v24) = _
  after_results_simp <;> rfl
/-- The first host stretch's bias row. -/
theorem w1_bias : W1 m ρ c (Proc.devRef .tc main_v25) = Cert.ReferenceIdeal.Read.val_main_v28 (F := Ideal) (m ((c : Thread nD τ).loc main_arg4)) := by
  have e : W1 m ρ c (Proc.devRef .tc main_v25) = shapeCast S1x64 (m ((c : Thread nD τ).loc main_arg4)) shapeCasts_S64_S1x64 := by
    show StableHlo.after hostOps0 (W0 m ρ c) (Proc.devRef .tc main_v25) = _
    after_results_simp <;> rfl
  rw [e]
  exact bias64_eq _
/-- Region 0's output array is the reference's first layer. -/
theorem w2_out : W2 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (Region0.final (V1 m ρ) c)).trans ?_
  show Cert.Combine.relu64 (W1 m ρ c (Proc.devRef .tc main_arg0)) (W1 m ρ c (Proc.devRef .tc main_v24)) (W1 m ρ c (Proc.devRef .tc main_arg2)) (W1 m ρ c (Proc.devRef .tc main_arg3)) (W1 m ρ c (Proc.devRef .tc main_v25)) = _
  rw [w1_arg0, w1_agg, w1_arg2, w1_arg3, w1_bias]
  exact (Cert.Combine.layer1_eq _ _ _ _ _).symm

/-! ## Layer 2 -/

/-- Host stretch 1's aggregate: the mean, over each node's incoming edges, of layer 1's output. -/
theorem w3_agg : W3 m ρ c (Proc.devRef .tc main_v38) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W3 m ρ c (Proc.devRef .tc main_v38) = Cert.Combine.meanAgg (W2 m ρ c (Proc.devRef .tc main_v26)) (W2 m ρ c (Proc.devRef .tc main_v1)) (W2 m ρ c (Proc.devRef .tc main_v3)) (W2 m ρ c (Proc.devRef .tc main_v12)) := by
    show StableHlo.after hostOps1 (W2 m ρ c) (Proc.devRef .tc main_v38) = _
    after_results_simp <;> rfl
  rw [e, w2_out, w2_v1, w2_v3, w2_v12]
  exact (Cert.Combine.agg2_eq _ _ _ _ _).symm
/-- Host stretch 1's bias row: layer 2's bias laid out as one row. -/
theorem w3_bias : W3 m ρ c (Proc.devRef .tc main_v39) = Cert.ReferenceIdeal.Read.val_main_v47 (F := Ideal) (m ((c : Thread nD τ).loc main_arg7)) := by
  have e : W3 m ρ c (Proc.devRef .tc main_v39) = shapeCast S1x64 (W2 m ρ c (Proc.devRef .tc main_arg7)) shapeCasts_S64_S1x64 := by
    show StableHlo.after hostOps1 (W2 m ρ c) (Proc.devRef .tc main_v39) = _
    after_results_simp <;> rfl
  rw [e, w2_arg7]
  exact bias64_eq _
/-- Host stretch 1 leaves layer 1's output in place. -/
theorem w3_prev : W3 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show StableHlo.after hostOps1 (W2 m ρ c) (Proc.devRef .tc main_v26) = W2 m ρ c (Proc.devRef .tc main_v26) by host_keeps hostOps1).trans (w2_out m ρ c)
/-- Region 1's output array is the reference's second layer. -/
theorem w4_out : W4 m ρ c (Proc.devRef .tc main_v40) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (Region1.final (V3 m ρ) c)).trans ?_
  show Cert.Combine.relu64 (W3 m ρ c (Proc.devRef .tc main_v26)) (W3 m ρ c (Proc.devRef .tc main_v38)) (W3 m ρ c (Proc.devRef .tc main_arg5)) (W3 m ρ c (Proc.devRef .tc main_arg6)) (W3 m ρ c (Proc.devRef .tc main_v39)) = _
  rw [w3_prev, w3_agg, w3_arg5, w3_arg6, w3_bias]
  exact (Cert.Combine.layer2_eq _ _ _ _ _ _ _ _).symm

/-! ## Layer 3 -/

/-- Host stretch 2's aggregate: the mean, over each node's incoming edges, of layer 2's output. -/
theorem w5_agg : W5 m ρ c (Proc.devRef .tc main_v52) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W5 m ρ c (Proc.devRef .tc main_v52) = Cert.Combine.meanAgg (W4 m ρ c (Proc.devRef .tc main_v40)) (W4 m ρ c (Proc.devRef .tc main_v1)) (W4 m ρ c (Proc.devRef .tc main_v3)) (W4 m ρ c (Proc.devRef .tc main_v12)) := by
    show StableHlo.after hostOps2 (W4 m ρ c) (Proc.devRef .tc main_v52) = _
    after_results_simp <;> rfl
  rw [e, w4_out, w4_v1, w4_v3, w4_v12]
  exact (Cert.Combine.agg3_eq _ _ _ _ _ _ _ _).symm
/-- Host stretch 2's bias row: layer 3's bias laid out as one row. -/
theorem w5_bias : W5 m ρ c (Proc.devRef .tc main_v53) = Cert.ReferenceIdeal.Read.val_main_v66 (F := Ideal) (m ((c : Thread nD τ).loc main_arg10)) := by
  have e : W5 m ρ c (Proc.devRef .tc main_v53) = shapeCast S1x64 (W4 m ρ c (Proc.devRef .tc main_arg10)) shapeCasts_S64_S1x64 := by
    show StableHlo.after hostOps2 (W4 m ρ c) (Proc.devRef .tc main_v53) = _
    after_results_simp <;> rfl
  rw [e, w4_arg10]
  exact bias64_eq _
/-- Host stretch 2 leaves layer 2's output in place. -/
theorem w5_prev : W5 m ρ c (Proc.devRef .tc main_v40) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (show StableHlo.after hostOps2 (W4 m ρ c) (Proc.devRef .tc main_v40) = W4 m ρ c (Proc.devRef .tc main_v40) by host_keeps hostOps2).trans (w4_out m ρ c)
/-- Region 2's output array is the reference's third layer. -/
theorem w6_out : W6 m ρ c (Proc.devRef .tc main_v54) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 5).trans (Region2.final (V5 m ρ) c)).trans ?_
  show Cert.Combine.relu64 (W5 m ρ c (Proc.devRef .tc main_v40)) (W5 m ρ c (Proc.devRef .tc main_v52)) (W5 m ρ c (Proc.devRef .tc main_arg8)) (W5 m ρ c (Proc.devRef .tc main_arg9)) (W5 m ρ c (Proc.devRef .tc main_v53)) = _
  rw [w5_prev, w5_agg, w5_arg8, w5_arg9, w5_bias]
  exact (Cert.Combine.layer3_eq _ _ _ _ _ _ _ _ _ _ _).symm

/-! ## Layer 4 -/

/-- Host stretch 3's aggregate: the mean, over each node's incoming edges, of layer 3's output. -/
theorem w7_agg : W7 m ρ c (Proc.devRef .tc main_v66) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : W7 m ρ c (Proc.devRef .tc main_v66) = Cert.Combine.meanAgg (W6 m ρ c (Proc.devRef .tc main_v54)) (W6 m ρ c (Proc.devRef .tc main_v1)) (W6 m ρ c (Proc.devRef .tc main_v3)) (W6 m ρ c (Proc.devRef .tc main_v12)) := by
    show StableHlo.after hostOps3 (W6 m ρ c) (Proc.devRef .tc main_v66) = _
    after_results_simp <;> rfl
  rw [e, w6_out, w6_v1, w6_v3, w6_v12]
  exact (Cert.Combine.agg4_eq _ _ _ _ _ _ _ _ _ _ _).symm
/-- Host stretch 3's bias row: layer 4's bias laid out as one row. -/
theorem w7_bias : W7 m ρ c (Proc.devRef .tc main_v67) = Cert.ReferenceIdeal.Read.val_main_v85 (F := Ideal) (m ((c : Thread nD τ).loc main_arg13)) := by
  have e : W7 m ρ c (Proc.devRef .tc main_v67) = shapeCast S1x1 (W6 m ρ c (Proc.devRef .tc main_arg13)) shapeCasts_S1_S1x1 := by
    show StableHlo.after hostOps3 (W6 m ρ c) (Proc.devRef .tc main_v67) = _
    after_results_simp <;> rfl
  rw [e, w6_arg13]
  exact bias1_eq _
/-- Host stretch 3 leaves layer 3's output in place. -/
theorem w7_prev : W7 m ρ c (Proc.devRef .tc main_v54) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (show StableHlo.after hostOps3 (W6 m ρ c) (Proc.devRef .tc main_v54) = W6 m ρ c (Proc.devRef .tc main_v54) by host_keeps hostOps3).trans (w6_out m ρ c)
/-- Region 3's output array — the program's result — is the reference's result as a function of the launch arrays. -/
theorem result_eq : (dat3 (V7 m ρ) c).arrAt 5 cfg3.N = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (Region3.final (V7 m ρ) c).trans ?_
  show Cert.Combine.sigm1 (W7 m ρ c (Proc.devRef .tc main_v54)) (W7 m ρ c (Proc.devRef .tc main_v66)) (W7 m ρ c (Proc.devRef .tc main_arg11)) (W7 m ρ c (Proc.devRef .tc main_arg12)) (W7 m ρ c (Proc.devRef .tc main_v67)) = _
  rw [w7_prev, w7_agg, w7_arg11, w7_arg12, w7_bias]
  exact (Cert.Combine.layer4_eq _ _ _ _ _ _ _ _ _ _ _ _ _ _).symm

end Cert.KernelIdeal.Fold

end
-- ==== Proof.lean ====
/-
  The certificate of a four-layer message-passing network on a graph of 100000 nodes and 1600000 edges. Each layer
  gathers the source rows of the current features, adds them into their destination rows, scales each row by the
  node's inverse in-degree, and applies a dense step: features · W_self + aggregate · W_neigh + bias, followed by
  max (·, 0) in the three hidden layers and by the logistic function in the last.

  The kernel does the sparse part with the same host operations as the reference, and the dense step in a region of
  ten grid points over blocks of 10000 rows, the factors narrowed to 16 bits before each product and the products
  accumulated in 32 bits. At the exact extended reals the narrowing is the identity, a block product into zero is the
  plain sum over the contracted index, and the logistic function is 1 / (1 + exp (−z)), which is how the reference spells
  it; the sums are taken over the same index in the same order on both sides, so the two results agree entry by entry
  with no use of the inputs' finiteness.

  Modules: Combine (the dense step and the sparse step on whole arrays, and the reference's layers as instances),
  Payload (the kernel body at one entry of a block), Entry (a block entry against the whole-array entry), Region0 … 3
  (each region's output array is the dense step of what it finds on entry), KernelRun (the run with its buffers named),
  Fold (each boundary's contents as functions of the launch arrays). The idealization rewrote nothing, so
  `preserves` has no conjunct.
-/
import proofs.«159402_j71751723647616_1_alg».proof.Defs
import proofs.«159402_j71751723647616_1_alg».proof.Proof.Gen.Kernel
import proofs.«159402_j71751723647616_1_alg».proof.Proof.Gen.Kernel.Skeleton
import proofs.«159402_j71751723647616_1_alg».proof.Proof.Gen.Kernel.Launch
import proofs.«159402_j71751723647616_1_alg».proof.Proof.Gen.Kernel.Points
import proofs.«159402_j71751723647616_1_alg».proof.Proof.Gen.Kernel.Frame
import proofs.«159402_j71751723647616_1_alg».proof.Proof.Gen.KernelIdeal
import proofs.«159402_j71751723647616_1_alg».proof.Proof.Gen.KernelIdeal.Skeleton
import proofs.«159402_j71751723647616_1_alg».proof.Proof.Gen.KernelIdeal.Launch
import proofs.«159402_j71751723647616_1_alg».proof.Proof.Gen.KernelIdeal.Points
import proofs.«159402_j71751723647616_1_alg».proof.Proof.Gen.KernelIdeal.Frame
import proofs.«159402_j71751723647616_1_alg».proof.Proof.Gen.ReferenceIdeal
import proofs.«159402_j71751723647616_1_alg».proof.Proof.Gen.ReferenceIdeal.Run
import proofs.«159402_j71751723647616_1_alg».proof.Proof.Gen.ReferenceIdeal.Read
import proofs.«159402_j71751723647616_1_alg».proof.Proof.Gen.Pre_finite_inputs
import proofs.«159402_j71751723647616_1_alg».proof.Proof.KernelRun
import proofs.«159402_j71751723647616_1_alg».proof.Proof.Fold
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the reference's last layer, as one
    function of the launch arrays, in their result buffers: the kernel's by the fold through its four host stretches
    and four regions, the reference's by its own run read back. -/
theorem algebraic : Cert.algebraic_KernelIdeal_ReferenceIdeal := by
  intro m ρ m' ρ' _ hagree
  refine ⟨fun c => Cert.ReferenceIdeal.Read.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Fold.result_eq m ρ c), (h c).2⟩)
      (Cert.KernelIdeal.Named.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq]
    obtain ⟨a0, a1, a2, a3, a4, a5, a6, a7, a8, a9, a10, a11, a12, a13⟩ := hagree c
    rw [a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
